-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S48x32 : Shape := ⟨2, ![48, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S48x32 : S_.BroadcastsInDim S48x32 (![] : Fin 0 → Fin S48x32.rank)
  reducesTo_S48x32_S_d0_1 : S48x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S16x2 .f32) (main_arg9 : FVec F S2 .f32) (main_v33 : IVec S_ 1) : IVec S_ 1 :=
  let main_v34 : FVec F S16x2 .f32 := Host.absf main_arg8
  let main_cst_12 : FVec F S_ .f32 := constant S_ .f32 0x7F800000#32
  let main_v35 : FVec F S16x2 .f32 := broadcastInDim S16x2 ![] bcast_S_S16x2 main_cst_12
  let main_v36 : IVec S16x2 1 := cmpf .olt main_v34 main_v35
  let main_c_13 : IVec S_ 1 := constantI S_ 1 1#1
  let main_v37 : IVec S_ 1 := (fun x v => Host.reduce IntOp.andi x v reducesTo_S16x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S32x16 .f32) (main_arg6 : FVec F S32x16 .f32) (main_arg7 : FVec F S16 .f32) (main_arg8 : FVec F S16x2 .f32) (main_arg9 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x48 .f32) (main_arg1 : IVec S2x1600000 32) (main_arg2 : FVec F S48x32 .f32) (main_arg3 : FVec F S48x32 .f32) (main_arg4 : FVec F S32 .f32) (main_arg5 : FVec F S32x16 .f32) (main_arg6 : FVec F S32x16 .f32) (main_arg7 : FVec F S16 .f32) (main_arg8 : FVec F S16x2 .f32) (main_arg9 : FVec F S2 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S48x32 .f32 := Host.absf main_arg2
  let main_cst_0 : FVec F S_ .f32 := constant S_ .f32 0x7F800000#32
  let main_v5 : FVec F S48x32 .f32 := broadcastInDim S48x32 ![] bcast_S_S48x32 main_cst_0
  let main_v6 : IVec S48x32 1 := cmpf .olt main_v4 main_v5
  let main_c_1 : IVec S_ 1 := constantI S_ 1 1#1
  let main_v7 : IVec S_ 1 := (fun x v => Host.reduce IntOp.andi x v reducesTo_S48x32_S_d0_1 h_S_) main_v6 main_c_1
  let main_v8 : IVec S_ 1 := andi main_v3 main_v7
  let main_v9 : FVec F S48x32 .f32 := Host.absf main_arg3
  let main_cst_2 : FVec F S_ .f32 := constant S_ .f32 0x7F800000#32
  let main_v10 : FVec F S48x32 .f32 := broadcastInDim S48x32 ![] bcast_S_S48x32 main_cst_2
  let main_v11 : IVec S48x32 1 := cmpf .olt main_v9 main_v10
  let main_c_3 : IVec S_ 1 := constantI S_ 1 1#1
  let main_v12 : IVec S_ 1 := (fun x v => Host.reduce IntOp.andi x v reducesTo_S48x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_v13 main_v16
-- ==== Kernel.lean ====
abbrev S100000x48 : Shape := ⟨2, ![100000, 48]⟩
abbrev S2x1600000 : Shape := ⟨2, ![2, 1600000]⟩
abbrev S48x32 : Shape := ⟨2, ![48, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x48 : Shape := ⟨2, ![1600000, 48]⟩
abbrev S100000x1 : Shape := ⟨2, ![100000, 1]⟩
abbrev S1x32 : Shape := ⟨2, ![1, 32]⟩
abbrev S100000x32 : Shape := ⟨2, ![100000, 32]⟩
abbrev S5000x48 : Shape := ⟨2, ![5000, 48]⟩
abbrev S5000x32 : Shape := ⟨2, ![5000, 32]⟩
abbrev S1600000x32 : Shape := ⟨2, ![1600000, 32]⟩
abbrev S1x16 : Shape := ⟨2, ![1, 16]⟩
abbrev S1x2 : Shape := ⟨2, ![1, 2]⟩
abbrev S100000x2 : Shape := ⟨2, ![100000, 2]⟩
abbrev S5000x2 : Shape := ⟨2, ![5000, 2]⟩
abbrev S5000x16 : Shape := ⟨2, ![5000, 16]⟩

abbrev nBuf : Space → Nat
  | .hbm => 63
  | .vmem => 20
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x32, .f32⟩
  | .hbm, ⟨3, _⟩ => ⟨S48x32, .f32⟩
  | .hbm, ⟨4, _⟩ => ⟨S32, .f32⟩
  | .hbm, ⟨5, _⟩ => ⟨S32x16, .f32⟩
  | .hbm, ⟨6, _⟩ => ⟨S32x16, .f32⟩
  | .hbm, ⟨7, _⟩ => ⟨S16, .f32⟩
  | .hbm, ⟨8, _⟩ => ⟨S16x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x48, .f32⟩
  | .hbm, ⟨35, _⟩ => ⟨S_, .f32⟩
  | .hbm, ⟨36, _⟩ => ⟨S100000x48, .f32⟩
  | .hbm, ⟨37, _⟩ => ⟨S1600000x1, .i32⟩
  | .hbm, ⟨38, _⟩ => ⟨S100000x48, .f32⟩
  | .hbm, ⟨39, _⟩ => ⟨S100000x1, .f32⟩
  | .hbm, ⟨40, _⟩ => ⟨S100000x48, .f32⟩
  | .hbm, ⟨41, _⟩ => ⟨S100000x48, .f32⟩
  | .hbm, ⟨42, _⟩ => ⟨S1x32, .f32⟩
  | .hbm, ⟨43, _⟩ => ⟨S100000x32, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x32, .f32⟩
  | .hbm, ⟨53, _⟩ => ⟨S_, .f32⟩
  | .hbm, ⟨54, _⟩ => ⟨S100000x32, .f32⟩
  | .hbm, ⟨55, _⟩ => ⟨S1600000x1, .i32⟩
  | .hbm, ⟨56, _⟩ => ⟨S100000x32, .f32⟩
  | .hbm, ⟨57, _⟩ => ⟨S100000x1, .f32⟩
  | .hbm, ⟨58, _⟩ => ⟨S100000x32, .f32⟩
  | .hbm, ⟨59, _⟩ => ⟨S100000x32, .f32⟩
  | .hbm, ⟨60, _⟩ => ⟨S1x16, .f32⟩
  | .hbm, ⟨61, _⟩ => ⟨S1x2, .f32⟩
  | .hbm, ⟨62, _⟩ => ⟨S100000x2, .f32⟩
  | .local _ .vmem, ⟨0, _⟩ => ⟨S5000x48, .f32⟩
  | .local _ .vmem, ⟨1, _⟩ => ⟨S5000x48, .f32⟩
  | .local _ .vmem, ⟨2, _⟩ => ⟨S5000x48, .f32⟩
  | .local _ .vmem, ⟨3, _⟩ => ⟨S5000x48, .f32⟩
  | .local _ .vmem, ⟨4, _⟩ => ⟨S48x32, .f32⟩
  | .local _ .vmem, ⟨5, _⟩ => ⟨S48x32, .f32⟩
  | .local _ .vmem, ⟨6, _⟩ => ⟨S1x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x16, .f32⟩
  | .local _ .vmem, ⟨14, _⟩ => ⟨S32x16, .f32⟩
  | .local _ .vmem, ⟨15, _⟩ => ⟨S1x16, .f32⟩
  | .local _ .vmem, ⟨16, _⟩ => ⟨S16x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  shapeCasts_S32_S1x32 : S32.ShapeCasts S1x32
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  bitsLt_bf16_f32 : FTy.bits .bf16 < FTy.bits .f32
  inb_S48x32_S48x32_0_0 : ∀ a, (![0, 0] : Fin 2 → Nat) a + S48x32.size a ≤ S48x32.size a
  h_S48x32 : 0 < S48x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S16_S1x16 : S16.ShapeCasts S1x16
  shapeCasts_S2_S1x2 : S2.ShapeCasts S1x2
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S5000x48_S48x32_S5000x32_1_0_0_1_n_n_wf : DotDims.WF S5000x48 S48x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  dot_S5000x16_S16x2_S5000x2_1_0_0_1_n_n_wf : DotDims.WF S5000x16 S16x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S100000x48.size a
  hwx0_1 : ∀ i : grid0.Coords, EltTy.bits .f32 = 32 ∨ (Rect.block (s := S100000x48) S5000x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x32.size a ≤ S48x32.size a
  hwx0_2 : ∀ i : grid0.Coords, EltTy.bits .f32 = 32 ∨ (Rect.block (s := S48x32) S48x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x32.size a ≤ S48x32.size a
  hwx0_3 : ∀ i : grid0.Coords, EltTy.bits .f32 = 32 ∨ (Rect.block (s := S48x32) S48x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x2.size a ≤ S16x2.size a
  hwx1_5 : ∀ i : grid1.Coords, EltTy.bits .f32 = 32 ∨ (Rect.block (s := S16x2) S16x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S5000x48_S48x32_S5000x32_1_0_0_1_n_n : DotDims S5000x48 S48x32 S5000x32 where
  lhsContracting := [1]
  rhsContracting := [0]
  lhsNonContracting := [0]
  rhsNonContracting := [1]
  lhsBatch := []
  rhsBatch := []
  wf := dot_S5000x48_S48x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf

abbrev win0_0 : Pipeline.Window sig grid0 :=
  Pipeline.Window.ofSpec (Memref.whole main_v24) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S48x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S48x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S16x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S48x32 : Shape := ⟨2, ![48, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S100000x16 : Shape := ⟨2, ![100000, 16]⟩
abbrev S1x16 : Shape := ⟨2, ![1, 16]⟩
abbrev S100000x2 : Shape := ⟨2, ![100000, 2]⟩
abbrev S1x2 : Shape := ⟨2, ![1, 2]⟩

abbrev nBuf : Space → Nat
  | .hbm => 86
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x32, .f32⟩
  | .hbm, ⟨3, _⟩ => ⟨S48x32, .f32⟩
  | .hbm, ⟨4, _⟩ => ⟨S32, .f32⟩
  | .hbm, ⟨5, _⟩ => ⟨S32x16, .f32⟩
  | .hbm, ⟨6, _⟩ => ⟨S32x16, .f32⟩
  | .hbm, ⟨7, _⟩ => ⟨S16, .f32⟩
  | .hbm, ⟨8, _⟩ => ⟨S16x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x48, .f32⟩
  | .hbm, ⟨23, _⟩ => ⟨S_, .f32⟩
  | .hbm, ⟨24, _⟩ => ⟨S100000x48, .f32⟩
  | .hbm, ⟨25, _⟩ => ⟨S1600000x1, .i32⟩
  | .hbm, ⟨26, _⟩ => ⟨S100000x48, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x48, .f32⟩
  | .hbm, ⟨38, _⟩ => ⟨S100000x48, .f32⟩
  | .hbm, ⟨39, _⟩ => ⟨S100000x32, .f32⟩
  | .hbm, ⟨40, _⟩ => ⟨S1x32, .f32⟩
  | .hbm, ⟨41, _⟩ => ⟨S100000x32, .f32⟩
  | .hbm, ⟨42, _⟩ => ⟨S100000x32, .f32⟩
  | .hbm, ⟨43, _⟩ => ⟨S100000x32, .f32⟩
  | .hbm, ⟨44, _⟩ => ⟨S100000x32, .f32⟩
  | .hbm, ⟨45, _⟩ => ⟨S_, .f32⟩
  | .hbm, ⟨46, _⟩ => ⟨S100000x32, .f32⟩
  | .hbm, ⟨47, _⟩ => ⟨S100000x32, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x32, .f32⟩
  | .hbm, ⟨57, _⟩ => ⟨S_, .f32⟩
  | .hbm, ⟨58, _⟩ => ⟨S100000x32, .f32⟩
  | .hbm, ⟨59, _⟩ => ⟨S1600000x1, .i32⟩
  | .hbm, ⟨60, _⟩ => ⟨S100000x32, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x32, .f32⟩
  | .hbm, ⟨72, _⟩ => ⟨S100000x32, .f32⟩
  | .hbm, ⟨73, _⟩ => ⟨S100000x16, .f32⟩
  | .hbm, ⟨74, _⟩ => ⟨S1x16, .f32⟩
  | .hbm, ⟨75, _⟩ => ⟨S100000x16, .f32⟩
  | .hbm, ⟨76, _⟩ => ⟨S100000x16, .f32⟩
  | .hbm, ⟨77, _⟩ => ⟨S100000x16, .f32⟩
  | .hbm, ⟨78, _⟩ => ⟨S100000x16, .f32⟩
  | .hbm, ⟨79, _⟩ => ⟨S_, .f32⟩
  | .hbm, ⟨80, _⟩ => ⟨S100000x16, .f32⟩
  | .hbm, ⟨81, _⟩ => ⟨S100000x16, .f32⟩
  | .hbm, ⟨82, _⟩ => ⟨S100000x2, .f32⟩
  | .hbm, ⟨83, _⟩ => ⟨S1x2, .f32⟩
  | .hbm, ⟨84, _⟩ => ⟨S100000x2, .f32⟩
  | .hbm, ⟨85, _⟩ => ⟨S100000x2, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  scatter_S100000_S1600000x1_S1600000_n_0_0_1_wf : ScatterDims.WF S100000 S1600000x1 S1600000 [] [0] [0] 1
  dot_S100000x48_S48x32_S100000x32_1_0_0_1_n_n_wf : DotDims.WF S100000x48 S48x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  dot_S100000x16_S16x2_S100000x2_1_0_0_1_n_n_wf : DotDims.WF S100000x16 S16x2 S100000x2 [1] [0] [0] [1] [] []

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x48_S48x32_S100000x32_1_0_0_1_n_n : DotDims S100000x48 S48x32 S100000x32 where
  lhsContracting := [1]
  rhsContracting := [0]
  lhsNonContracting := [0]
  rhsNonContracting := [1]
  lhsBatch := []
  rhsBatch := []
  wf := dot_S100000x48_S48x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.ValuedRun.lean ====
/-
  The kernel program's run with its result kept.

  The program is four segments in sequence: a stretch of host operations, the first launch, a second stretch of host
  operations, the second launch. Its run ends with every buffer at the contents obtained by folding the segments over
  the launch memory (`W4`); the frame statement keeps of this only that the arguments are unchanged. Here the same run
  is stated keeping one more buffer: the returned array ends at the fold's contents for it. What those contents ARE,
  as a function of the arguments, is read off the fold afterwards.
-/
import proofs.«125874_j31645319037563_1_alg».proof.Proof.Gen.KernelIdeal.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the returned array at the contents the
    fold of the four segments gives it and the argument arrays as launched. -/
theorem run : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Valued

end
-- ==== Proof.LibNodeMean.lean ====
/-
  The neighbour mean as whole arrays: a sum per node and feature, scaled by the node's clamped count.

  A per-node vector `v` laid along the feature axis — first as a column `[N, 1]`, then repeated `K` times — reads `v p`
  at every entry `(p, k)`. With `c` the per-node counts, the array of sums multiplied by the broadcast of
  `1 / max c 1` is, entry by entry, the array of sums divided by the broadcast of `max c 1`: the divisor is at least one,
  so never zero, and off zero the quotient of extended reals is the product with the inverse whatever the dividend.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

/-- The word `0x3F800000` is the number one. -/
theorem one_word_f32 : Ideal.ofBits .f32 0x3F800000#32 = 1 := by
  simp [Ideal.ofBits, Ideal.ieee, -EReal.coe_mul]; norm_num

variable {α : Type} {N K : ℕ}

/-- A per-node vector as a column `[N, 1]`, then repeated along a second axis of extent `K`: at `(p, k)` it is `v p`. -/
theorem nodeBroadcast_apply (v : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) (p : Fin N) (k : Fin K) :
    broadcastInDim ⟨2, ![N, K]⟩ ![0, 1] h2 (broadcastInDim ⟨2, ![N, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if N = 1 then 0 else p.val
      have hp : p.val < N := p.isLt
      split
      · omega
      · rfl
    | ⟨1, _⟩ => show 0 = if (1 : ℕ) = 1 then 0 else k.val; rw [if_pos rfl]
  · match a with
    | ⟨0, _⟩ =>
      show p.val = if N = 1 then 0 else p.val
      have hp : p.val < N := p.isLt
      split
      · omega
      · rfl

/-- A scalar repeated over a vector reads the scalar everywhere. -/
theorem scalarBroadcast_apply (x : (⟨0, ![]⟩ : Shape).Idx → α)
    (h0 : (⟨0, ![]⟩ : Shape).BroadcastsInDim ⟨1, ![N]⟩ (![] : Fin 0 → Fin 1)) (i : (⟨1, ![N]⟩ : Shape).Idx) :
    broadcastInDim ⟨1, ![N]⟩ ![] h0 x i = x ix0 :=
  broadcastInDim_apply _ h0 x i ix0 fun a => a.elim0

/-- THE MEAN, either way: the sums times the broadcast reciprocal of the clamped counts are the sums divided by the
    broadcast clamped counts, as whole arrays on the extended reals. -/
theorem mean_by_reciprocal (S : FVec Ideal ⟨2, ![N, K]⟩ .f32) (cnt : FVec Ideal ⟨1, ![N]⟩ .f32)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) :
    mulf S (broadcastInDim ⟨2, ![N, K]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf cnt (broadcastInDim ⟨1, ![N]⟩ ![] h0 (constant (F := Ideal) ⟨0, ![]⟩ .f32 0x3F800000#32))))))
      = Host.divf S (broadcastInDim ⟨2, ![N, K]⟩ ![0, 1] h2 (broadcastInDim ⟨2, ![N, 1]⟩ ![0] h1
          (maximumf cnt (broadcastInDim ⟨1, ![N]⟩ ![] h0 (constant (F := Ideal) ⟨0, ![]⟩ .f32 0x3F800000#32))))) := by
  funext i
  obtain ⟨p, k, rfl⟩ : ∃ (p : Fin N) (k : Fin K), i = ix2 p k := ⟨i 0, i 1, eq_ix2 i⟩
  have e1 := nodeBroadcast_apply
    (Host.divf (broadcastInDim ⟨1, ![N]⟩ ![] h0 (constant (F := Ideal) ⟨0, ![]⟩ .f32 0x3F800000#32))
      (maximumf cnt (broadcastInDim ⟨1, ![N]⟩ ![] h0 (constant (F := Ideal) ⟨0, ![]⟩ .f32 0x3F800000#32)))) h1 h2 p k
  have e2 := nodeBroadcast_apply
    (maximumf cnt (broadcastInDim ⟨1, ![N]⟩ ![] h0 (constant (F := Ideal) ⟨0, ![]⟩ .f32 0x3F800000#32))) h1 h2 p k
  have e0 : broadcastInDim ⟨1, ![N]⟩ ![] h0 (constant (F := Ideal) ⟨0, ![]⟩ .f32 0x3F800000#32) (ix1 p) = (1 : EReal) :=
    (scalarBroadcast_apply _ h0 (ix1 p)).trans one_word_f32
  show S (ix2 p k) * _ = Ideal.div (S (ix2 p k)) _
  rw [e1, e2]
  show S (ix2 p k) * Ideal.div (broadcastInDim ⟨1, ![N]⟩ ![] h0 (constant (F := Ideal) ⟨0, ![]⟩ .f32 0x3F800000#32) (ix1 p))
      (max (cnt (ix1 p)) (broadcastInDim ⟨1, ![N]⟩ ![] h0 (constant (F := Ideal) ⟨0, ![]⟩ .f32 0x3F800000#32) (ix1 p)))
    = Ideal.div (S (ix2 p k))
      (max (cnt (ix1 p)) (broadcastInDim ⟨1, ![N]⟩ ![] h0 (constant (F := Ideal) ⟨0, ![]⟩ .f32 0x3F800000#32) (ix1 p)))
  rw [e0]
  have hy : max (cnt (ix1 p)) (1 : EReal) ≠ 0 := ne_of_gt (lt_of_lt_of_le zero_lt_one (le_max_right _ _))
  unfold Ideal.div
  rw [if_neg hy, if_neg hy, one_mul]

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.SageSpec.lean ====
/-
  The mathematics both programs compute, stated once over the extended reals, free of either program.

  A GraphSAGE layer takes, per node `p`, the mean `mean p` of its in-neighbours' features and the node's own features
  `self p`, and produces `relu (mean p · Wl + self p · Wr + b)`: at output feature `q`,
  `max ((Σ_k mean(p,k)·Wl(k,q)) + (Σ_k self(p,k)·Wr(k,q)) + b q) 0`. The network is two such layers and a final affine
  map `h p · W + b`. The neighbour mean is a sum of gathered rows divided by `max (count) 1`; one program divides, the
  other multiplies by the reciprocal `1 / max (count) 1`. A divisor `max c 1` is at least `1`, hence never `0`, and off
  zero a quotient on the extended reals IS the product with the inverse — for every dividend, infinite ones included —
  so the two means are the same number with no finiteness assumption. The bias is added before the second product in
  one program and after it in the other: addition on the extended reals is commutative and associative everywhere.
-/
import Idealize.ShloMosaic.PureOps.Ideal.Laws
import Idealize.ShloMosaic.Lib.ValueIdx

noncomputable section

namespace Cert.Sage

open Idealize.ShloMosaic Idealize.ShloMosaic.ValueIdx
open scoped BigOperators

/-- Off zero, multiplying by the reciprocal `1 / y` is dividing by `y`, for EVERY extended real dividend: both are
    `s · y⁻¹`. -/
theorem mul_recip (s y : EReal) (hy : y ≠ 0) : s * Ideal.div 1 y = Ideal.div s y := by
  unfold Ideal.div
  rw [if_neg hy, if_neg hy, one_mul]

/-- A count clamped below by one is not zero. -/
theorem max_one_ne_zero (c : EReal) : max c 1 ≠ 0 :=
  ne_of_gt (lt_of_lt_of_le zero_lt_one (le_max_right c 1))

/-- The mean by a reciprocal is the mean by a quotient, whatever the sum and the count. -/
theorem mean_recip (s c : EReal) : s * Ideal.div 1 (max c 1) = Ideal.div s (max c 1) :=
  mul_recip s (max c 1) (max_one_ne_zero c)

variable {N K M : ℕ}

/-- One layer at node `p`, output feature `q`: the rectified sum of the neighbour mean's and the node's own products
    with their weights, and the bias. -/
def layerAt (mean self : (⟨2, ![N, K]⟩ : Shape).Idx → EReal) (Wl Wr : (⟨2, ![K, M]⟩ : Shape).Idx → EReal)
    (b : Fin M → EReal) (p : Fin N) (q : Fin M) : EReal :=
  max (((∑ k : Fin K, mean (ix2 p k) * Wl (ix2 k q)) + ∑ k : Fin K, self (ix2 p k) * Wr (ix2 k q)) + b q) 0

/-- The layer as an array over nodes and output features. -/
def layer (mean self : (⟨2, ![N, K]⟩ : Shape).Idx → EReal) (Wl Wr : (⟨2, ![K, M]⟩ : Shape).Idx → EReal)
    (b : Fin M → EReal) : (⟨2, ![N, M]⟩ : Shape).Idx → EReal :=
  fun i => layerAt mean self Wl Wr b (i 0) (i 1)

theorem layer_ix2 (mean self : (⟨2, ![N, K]⟩ : Shape).Idx → EReal) (Wl Wr : (⟨2, ![K, M]⟩ : Shape).Idx → EReal)
    (b : Fin M → EReal) (p : Fin N) (q : Fin M) : layer mean self Wl Wr b (ix2 p q) = layerAt mean self Wl Wr b p q := rfl

/-- The same layer with the bias added BEFORE the node's own product: equal, by commutativity and associativity of
    addition on the extended reals (no distributivity, so no finiteness). -/
theorem layerAt_bias_first (mean self : (⟨2, ![N, K]⟩ : Shape).Idx → EReal) (Wl Wr : (⟨2, ![K, M]⟩ : Shape).Idx → EReal)
    (b : Fin M → EReal) (p : Fin N) (q : Fin M) :
    max (((∑ k : Fin K, mean (ix2 p k) * Wl (ix2 k q)) + b q) + ∑ k : Fin K, self (ix2 p k) * Wr (ix2 k q)) 0
      = layerAt mean self Wl Wr b p q := by
  unfold layerAt
  rw [add_right_comm]

/-- A layer's entry `(p, q)` reads row `p` of its two inputs, column `q` of its two weight matrices and entry `q` of the
    bias, and nothing else: two sets of operands that agree there give the same entry (the rows may sit at different
    positions `p`, `p'` of arrays of different heights — a block and the array it is cut from). -/
theorem layerAt_congr {N' : ℕ} (mean self : (⟨2, ![N, K]⟩ : Shape).Idx → EReal) (mean' self' : (⟨2, ![N', K]⟩ : Shape).Idx → EReal)
    (Wl Wr Wl' Wr' : (⟨2, ![K, M]⟩ : Shape).Idx → EReal) (b b' : Fin M → EReal) (p : Fin N) (p' : Fin N') (q q' : Fin M)
    (hm : ∀ k : Fin K, mean (ix2 p k) = mean' (ix2 p' k)) (hs : ∀ k : Fin K, self (ix2 p k) = self' (ix2 p' k))
    (hl : ∀ k : Fin K, Wl (ix2 k q) = Wl' (ix2 k q')) (hr : ∀ k : Fin K, Wr (ix2 k q) = Wr' (ix2 k q'))
    (hb : b q = b' q') :
    layerAt mean self Wl Wr b p q = layerAt mean' self' Wl' Wr' b' p' q' := by
  unfold layerAt
  rw [Finset.sum_congr rfl fun k _ => congrArg₂ (· * ·) (hm k) (hl k),
    Finset.sum_congr rfl fun k _ => congrArg₂ (· * ·) (hs k) (hr k), hb]

/-- The final affine map at node `p`, output `q`. -/
def affineAt (h : (⟨2, ![N, K]⟩ : Shape).Idx → EReal) (W : (⟨2, ![K, M]⟩ : Shape).Idx → EReal)
    (b : Fin M → EReal) (p : Fin N) (q : Fin M) : EReal :=
  (∑ k : Fin K, h (ix2 p k) * W (ix2 k q)) + b q

/-- The affine map as an array. -/
def affine (h : (⟨2, ![N, K]⟩ : Shape).Idx → EReal) (W : (⟨2, ![K, M]⟩ : Shape).Idx → EReal)
    (b : Fin M → EReal) : (⟨2, ![N, M]⟩ : Shape).Idx → EReal :=
  fun i => affineAt h W b (i 0) (i 1)

theorem affine_ix2 (h : (⟨2, ![N, K]⟩ : Shape).Idx → EReal) (W : (⟨2, ![K, M]⟩ : Shape).Idx → EReal)
    (b : Fin M → EReal) (p : Fin N) (q : Fin M) : affine h W b (ix2 p q) = affineAt h W b p q := rfl

/-- The affine map's entry `(p, q)` reads row `p` of its input, column `q` of the weights and entry `q` of the bias. -/
theorem affineAt_congr {N' : ℕ} (h : (⟨2, ![N, K]⟩ : Shape).Idx → EReal) (h' : (⟨2, ![N', K]⟩ : Shape).Idx → EReal)
    (W W' : (⟨2, ![K, M]⟩ : Shape).Idx → EReal) (b b' : Fin M → EReal) (p : Fin N) (p' : Fin N') (q q' : Fin M)
    (hh : ∀ k : Fin K, h (ix2 p k) = h' (ix2 p' k)) (hw : ∀ k : Fin K, W (ix2 k q) = W' (ix2 k q')) (hb : b q = b' q') :
    affineAt h W b p q = affineAt h' W' b' p' q' := by
  unfold affineAt
  rw [Finset.sum_congr rfl fun k _ => congrArg₂ (· * ·) (hh k) (hw k), hb]

end Cert.Sage

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.KernelBodies.lean ====
/-
  What each kernel body stores, entry by entry, on the extended reals.

  The first body loads a block of 5000 rows of the neighbour means and of the nodes' own features, both weight matrices
  and the bias row, and stores `relu (mean · Wl + self · Wr + b)`: at row `p`, feature `q`, one layer of the network on
  the block's rows. Rounding the operands to bf16 on the way into the matrix unit is the identity on the extended reals,
  and a product accumulated from zero is the plain row-by-column sum. The second body does the same with the second
  layer's weights and then applies the final affine map to the rectified rows, within the block.
-/
import proofs.«125874_j31645319037563_1_alg».proof.Proof.Gen.KernelIdeal.Skeleton
import proofs.«125874_j31645319037563_1_alg».proof.Proof.SageSpec
import proofs.«125874_j31645319037563_1_alg».proof.Proof.LibMatDot
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.Sage Cert.Lib
open scoped BigOperators

section Generic

variable {a K b : ℕ} (wf : DotDims.WF ⟨2, ![a, K]⟩ ⟨2, ![K, b]⟩ ⟨2, ![a, b]⟩ [1] [0] [0] [1] [] [])
  (hlt : FTy.bf16.bits < FTy.f32.bits)

/-- A block of rows times a matrix, both rounded to bf16 on the way in, accumulated from zero: at `(p, q)` the sum over
    `k` of `l (p, k) · r (k, q)` — the rounding is the identity here and the zero accumulator adds nothing. -/
theorem rounded_product (l : FVec Ideal ⟨2, ![a, K]⟩ .f32) (r : FVec Ideal ⟨2, ![K, b]⟩ .f32) (p : Fin a) (q : Fin b) :
    matmul (F := Ideal) (matDot wf) none (truncf .bf16 l hlt) (truncf .bf16 r hlt)
        (constant ⟨2, ![a, b]⟩ .f32 0x00000000#32) (ix2 p q)
      = ∑ k : Fin K, l (ix2 p k) * r (ix2 k q) :=
  (matmul_plain_zero_apply wf none (truncf .bf16 l hlt) (truncf .bf16 r hlt) p q).trans
    (Finset.sum_congr rfl fun k _ => rfl)

/-- The rectified layer as a body computes it on a block: two rounded products from zero, the bias row repeated over
    the rows, the maximum with zero. -/
def bodyLayer (x0 x1 : FVec Ideal ⟨2, ![a, K]⟩ .f32) (x2 x3 : FVec Ideal ⟨2, ![K, b]⟩ .f32)
    (x4 : FVec Ideal ⟨2, ![1, b]⟩ .f32) (hb : (⟨2, ![1, b]⟩ : Shape).Broadcasts ⟨2, ![a, b]⟩) : FVec Ideal ⟨2, ![a, b]⟩ .f32 :=
  maximumf
    (addf
      (addf
        (matmul (matDot wf) none (truncf .bf16 x0 hlt) (truncf .bf16 x2 hlt) (constant ⟨2, ![a, b]⟩ .f32 0x00000000#32))
        (matmul (matDot wf) none (truncf .bf16 x1 hlt) (truncf .bf16 x3 hlt) (constant ⟨2, ![a, b]⟩ .f32 0x00000000#32)))
      (broadcastTo ⟨2, ![a, b]⟩ x4 hb))
    (broadcast ⟨2, ![a, b]⟩ (FloatOps.ofBits (F := Ideal) .f32 0x00000000#32))

/-- At row `p`, feature `q` it is the layer of the specification on the block's rows, the bias read off its one row. -/
theorem bodyLayer_apply (x0 x1 : FVec Ideal ⟨2, ![a, K]⟩ .f32) (x2 x3 : FVec Ideal ⟨2, ![K, b]⟩ .f32)
    (x4 : FVec Ideal ⟨2, ![1, b]⟩ .f32) (hb : (⟨2, ![1, b]⟩ : Shape).Broadcasts ⟨2, ![a, b]⟩) (p : Fin a) (q : Fin b) :
    bodyLayer wf hlt x0 x1 x2 x3 x4 hb (ix2 p q) = layerAt x0 x1 x2 x3 (fun j => x4 (ix2 (0 : Fin 1) j)) p q := by
  unfold bodyLayer layerAt
  rw [maximumf_apply, addf_apply, addf_apply, rounded_product, rounded_product, broadcastTo_1b_ab_apply, broadcast_apply]
  exact congrArg (max _) Ideal.ofBits_zero_f32

end Generic

/-- The first body's stored block at row `p`, feature `q`: one layer on the block's rows. -/
theorem layer1_entry (x0 x1 : Vec Ideal S5000x48 .f32) (x2 x3 : Vec Ideal S48x32 .f32) (x4 : Vec Ideal S1x32 .f32)
    (p : Fin 5000) (q : Fin 32) :
    k0_pay1 (F := Ideal) x0 x1 x2 x3 x4 (ix2 p q)
      = layerAt x0 x1 x2 x3 (fun j => x4 (ix2 (0 : Fin 1) j)) p q := by
  unfold k0_pay1
  rw [shapeCast_self, shapeCast_self]
  exact bodyLayer_apply dot_S5000x48_S48x32_S5000x32_1_0_0_1_n_n.wf bitsLt_bf16_f32 x0 x1 x2 x3 x4
    broadcasts_S1x32_S5000x32 p q

/-- The second body's stored block at row `p`, output `q`: the second layer on the block's rows, then the final affine
    map of the rectified rows. -/
theorem logits_entry (x0 x1 : Vec Ideal S5000x32 .f32) (x2 x3 : Vec Ideal S32x16 .f32) (x4 : Vec Ideal S1x16 .f32)
    (x5 : Vec Ideal S16x2 .f32) (x6 : Vec Ideal S1x2 .f32) (p : Fin 5000) (q : Fin 2) :
    k1_pay1 (F := Ideal) x0 x1 x2 x3 x4 x5 x6 (ix2 p q)
      = affineAt (layer x0 x1 x2 x3 (fun j => x4 (ix2 (0 : Fin 1) j))) x5 (fun j => x6 (ix2 (0 : Fin 1) j)) p q := by
  unfold k1_pay1 affineAt
  dsimp only
  rw [shapeCast_self, shapeCast_self, shapeCast_self, shapeCast_self, addf_apply]
  refine congrArg₂ (· + ·) ?_ (broadcastTo_1b_ab_apply x6 broadcasts_S1x2_S5000x2 p q)
  refine (rounded_product dot_S5000x16_S16x2_S5000x2_1_0_0_1_n_n.wf bitsLt_bf16_f32
    (bodyLayer dot_S5000x32_S32x16_S5000x16_1_0_0_1_n_n.wf bitsLt_bf16_f32 x0 x1 x2 x3 x4 broadcasts_S1x16_S5000x16)
    x5 p q).trans (Finset.sum_congr rfl fun k _ => congrArg (· * x5 (ix2 k q)) ?_)
  exact bodyLayer_apply dot_S5000x32_S32x16_S5000x16_1_0_0_1_n_n.wf bitsLt_bf16_f32 x0 x1 x2 x3 x4
    broadcasts_S1x16_S5000x16 p k

end Cert.KernelIdeal.Body

end
-- ==== Proof.RegionValues.lean ====
/-
  From blocks to arrays: what each of the two kernel launches leaves in its output array, as ONE function of the arrays
  it was launched on.

  Each launch runs its body at 20 grid points; point `t` reads rows `5000·t … 5000·t + 4999` of the two row-tiled
  inputs, the whole of every weight and bias array, and writes back rows `5000·t … 5000·t + 4999` of the output. An
  entry of a layer depends on one row of its inputs only, so the block a point writes is the restriction to its rows
  of the layer applied to the WHOLE input arrays; the 20 blocks tile the output's 100000 rows, so the output ends
  holding that layer. The first launch leaves the hidden layer; the second leaves the final affine map of the second
  layer.
-/
import proofs.«125874_j31645319037563_1_alg».proof.Proof.Gen.KernelIdeal.Frame
import proofs.«125874_j31645319037563_1_alg».proof.Proof.KernelBodies
import proofs.«125874_j31645319037563_1_alg».proof.Proof.SageSpec
import Idealize.ShloMosaic.Lib.Pipeline.Value

set_option maxRecDepth 16384

noncomputable section

namespace Cert.KernelIdeal.Blocks

open Cert.KernelIdeal Cert.KernelIdeal.Gen Cert.KernelIdeal.Body Idealize.ShloMosaic Idealize.ShloMosaic.TcCoe
open Idealize.ShloMosaic.ValueIdx Idealize.SL.Sem Cert.Sage
open Idealize.ShloMosaic.Pipeline (Dat)

-- the arrays as a launch finds them
variable (V : (c : Dev nD) → (b : Ref sig .tc) → Buf (Elt Ideal) ((c : Thread nD τ).loc b))

theorem zero_offsets : (![0, 0] : Fin 2 → Nat) = fun _ => 0 := funext fun a => by fin_cases a <;> rfl

/-! ## The first launch: the hidden layer -/

/-- The hidden layer of the whole arrays: neighbour means, own features, the two weight matrices, the bias as one row. -/
def hidden (mean x : S100000x48.Idx → Elt Ideal .f32) (Wl Wr : S48x32.Idx → Elt Ideal .f32)
    (brow : S1x32.Idx → Elt Ideal .f32) : S100000x32.Idx → Elt Ideal .f32 :=
  layer mean x Wl Wr (fun j => brow (ix2 (0 : Fin 1) j))

/-- The index maps over the grid: the row-tiled windows sit at block `t`, the others at block `0`. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block of the neighbour means is row `5000·t + p` of the array. -/
theorem block0_mean (c : Dev nD) (t : Fin cfg0.N) (p : Fin 5000) (k : Fin 48) (r : Fin 100000)
    (hr : r.val = t.val * 5000 + p.val) : iblk0 V c 0 t (ix2 p k) = V c main_v24 (ix2 r k) := by
  obtain ⟨e0, e1, -⟩ := index_facts0 t
  show V c main_v24 (((cfg0.win 0).blk t).view.emb (ix2 p k)) = V c main_v24 (ix2 r k)
  refine congrArg (V c main_v24) (funext fun a => Fin.ext ?_)
  match a with
  | ⟨0, _⟩ => show win0_0.index t (0 : Fin 2) * 5000 + 1 * p.val = r.val; omega
  | ⟨1, _⟩ => show win0_0.index t (1 : Fin 2) * 48 + 1 * k.val = k.val; omega

/-- The same for the nodes' own features. -/
theorem block0_self (c : Dev nD) (t : Fin cfg0.N) (p : Fin 5000) (k : Fin 48) (r : Fin 100000)
    (hr : r.val = t.val * 5000 + p.val) : iblk0 V c 1 t (ix2 p k) = V c main_arg0 (ix2 r k) := by
  obtain ⟨-, -, e0, e1, -⟩ := index_facts0 t
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 48 + 1 * k.val = k.val; omega

/-- A weight matrix's one block is the matrix. -/
theorem block0_Wl (c : Dev nD) (t : Fin cfg0.N) (k : Fin 48) (q q' : Fin 32) (hq : q'.val = q.val) :
    iblk0 V c 2 t (ix2 k q) = V c main_arg2 (ix2 k q') := by
  obtain ⟨-, -, -, -, e0, e1, -⟩ := index_facts0 t
  show V c main_arg2 (((cfg0.win 2).blk t).view.emb (ix2 k q)) = V c main_arg2 (ix2 k q')
  refine congrArg (V c main_arg2) (funext fun a => Fin.ext ?_)
  match a with
  | ⟨0, _⟩ => show win0_2.index t (0 : Fin 2) * 48 + 1 * k.val = k.val; omega
  | ⟨1, _⟩ => show win0_2.index t (1 : Fin 2) * 32 + 1 * q.val = q'.val; omega

theorem block0_Wr (c : Dev nD) (t : Fin cfg0.N) (k : Fin 48) (q q' : Fin 32) (hq : q'.val = q.val) :
    iblk0 V c 3 t (ix2 k q) = V c main_arg3 (ix2 k q') := by
  obtain ⟨-, -, -, -, -, -, e0, e1, -⟩ := index_facts0 t
  show V c main_arg3 (((cfg0.win 3).blk t).view.emb (ix2 k q)) = V c main_arg3 (ix2 k q')
  refine congrArg (V c main_arg3) (funext fun a => Fin.ext ?_)
  match a with
  | ⟨0, _⟩ => show win0_3.index t (0 : Fin 2) * 48 + 1 * k.val = k.val; omega
  | ⟨1, _⟩ => show win0_3.index t (1 : Fin 2) * 32 + 1 * q.val = q'.val; omega

/-- The bias row's one block is the row. -/
theorem block0_bias (c : Dev nD) (t : Fin cfg0.N) (q q' : Fin 32) (hq : q'.val = q.val) :
    iblk0 V c 4 t (ix2 (0 : Fin 1) q) = V c main_v25 (ix2 (0 : Fin 1) q') := by
  obtain ⟨-, -, -, -, -, -, -, -, e0, e1, -⟩ := index_facts0 t
  show V c main_v25 (((cfg0.win 4).blk t).view.emb (ix2 (0 : Fin 1) q)) = V c main_v25 (ix2 (0 : Fin 1) q')
  refine congrArg (V c main_v25) (funext fun a => Fin.ext ?_)
  match a with
  | ⟨0, _⟩ => show win0_4.index t (0 : Fin 2) * 1 + 1 * 0 = 0; omega
  | ⟨1, _⟩ => show win0_4.index t (1 : Fin 2) * 32 + 1 * q.val = q'.val; omega

/-- WHAT POINT `t` WRITES BACK is block `t` of the hidden layer of the arrays the launch found. -/
theorem flushed0 (c : Dev nD) (t : Fin cfg0.N) :
    (dat0 V c).flushed 5 t = ((cfg0.win 5).blk t).view.read (Elt Ideal)
      (hidden (V c main_v24) (V c main_arg0) (V c main_arg2) (V c main_arg3) (V c main_v25)) := by
  show (cfg0.win 5).cut (grid0.coords t) ((dat0 V c).after 5 t) = _
  rw [after0_5]
  unfold out0_5
  rw [View.canon_unit_zero zero_offsets]
  simp only [View.ld_unit_zero (S := S5000x48) zero_offsets, View.ld_unit_zero (S := S48x32) zero_offsets,
    View.ld_unit_zero (S := S1x32) zero_offsets]
  funext j
  obtain ⟨p, q, rfl⟩ : ∃ (p : Fin 5000) (q : Fin 32), j = ix2 p q := ⟨j 0, j 1, eq_ix2 j⟩
  obtain ⟨-, -, -, -, -, -, -, -, -, -, e0, e1⟩ := index_facts0 t
  have hr : ((((cfg0.win 5).blk t).view.emb (ix2 p q)) 0).val = t.val * 5000 + p.val := by
    show win0_5.index t (0 : Fin 2) * 5000 + 1 * p.val = _; omega
  have hq : ((((cfg0.win 5).blk t).view.emb (ix2 p q)) 1).val = q.val := by
    show win0_5.index t (1 : Fin 2) * 32 + 1 * q.val = _; omega
  show k0_pay1 (iblk0 V c 0 t) (iblk0 V c 1 t) (iblk0 V c 2 t) (iblk0 V c 3 t) (iblk0 V c 4 t) (ix2 p q)
    = layerAt (V c main_v24) (V c main_arg0) (V c main_arg2) (V c main_arg3) (fun j => V c main_v25 (ix2 (0 : Fin 1) j))
        ((((cfg0.win 5).blk t).view.emb (ix2 p q)) 0) ((((cfg0.win 5).blk t).view.emb (ix2 p q)) 1)
  refine (layer1_entry (iblk0 V c 0 t) (iblk0 V c 1 t) (iblk0 V c 2 t) (iblk0 V c 3 t) (iblk0 V c 4 t) p q).trans ?_
  exact layerAt_congr _ _ _ _ _ _ _ _ _ _ p _ q _
    (fun k => block0_mean V c t p k _ hr) (fun k => block0_self V c t p k _ hr)
    (fun k => block0_Wl V c t k q _ hq) (fun k => block0_Wr V c t k q _ hq) (block0_bias V c t q _ hq)

/-- An index of the output array is in point `t`'s block iff each coordinate is in the block's range on its axis. -/
theorem mem_block0 (t : Fin cfg0.N) (i : S100000x32.Idx) :
    i ∈ ((cfg0.win 5).blk t).view.set ↔ ∀ a : Fin 2, win0_5.index t a * S5000x32.size a ≤ (i a).val
      ∧ (i a).val < win0_5.index t a * S5000x32.size a + S5000x32.size a := by
  show i ∈ ((View.whole main_v26).slice (win0_5.rect t)).set ↔ _
  rw [View.set_slice_whole, Rect.mem_set_unit]
  exact Iff.rfl

/-- The 20 blocks tile the output: row `r` is in the block of point `r / 5000`. -/
theorem cover0 (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have ht : (i 0).val / 5000 < 20 := by omega
  obtain ⟨-, -, -, -, -, -, -, -, -, -, e0, e1⟩ := index_facts0 ⟨(i 0).val / 5000, ht⟩
  refine ⟨⟨(i 0).val / 5000, ht⟩, flush0_5 _, ?_⟩
  rw [mem_block0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 32 ≤ (i 1).val
      ∧ (i 1).val < win0_5.index ⟨(i 0).val / 5000, ht⟩ (1 : Fin 2) * 32 + 32
    rw [e1]; omega

/-- THE FIRST LAUNCH'S OUTPUT ARRAY, after it: the hidden layer of the arrays the launch found. -/
theorem hidden_array (c : Dev nD) :
    (dat0 V c).arrAt 5 cfg0.N = hidden (V c main_v24) (V c main_arg0) (V c main_arg2) (V c main_arg3) (V c main_v25) :=
  (dat0 V c).arrAt_eq_of_cover 5 _ (fun t _ => flushed0 V c t) cover0

/-! ## The second launch: the second layer, then the final affine map -/

/-- The result of the whole arrays: the second layer of the second neighbour means and the hidden layer, then the affine
    map; the two biases as one row each. -/
def logits (mean h : S100000x32.Idx → Elt Ideal .f32) (Wl Wr : S32x16.Idx → Elt Ideal .f32)
    (brow : S1x16.Idx → Elt Ideal .f32) (W : S16x2.Idx → Elt Ideal .f32) (crow : S1x2.Idx → Elt Ideal .f32) :
    S100000x2.Idx → Elt Ideal .f32 :=
  affine (layer mean h Wl Wr (fun j => brow (ix2 (0 : Fin 1) j))) W (fun j => crow (ix2 (0 : Fin 1) j))

/-- The index maps over the grid: the row-tiled windows sit at block `t`, the others at block `0`. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of point `t`'s block of the second neighbour means is row `5000·t + p` of the array. -/
theorem block1_mean (c : Dev nD) (t : Fin cfg1.N) (p : Fin 5000) (k : Fin 32) (r : Fin 100000)
    (hr : r.val = t.val * 5000 + p.val) : iblk1 V c 0 t (ix2 p k) = V c main_v39 (ix2 r k) := by
  obtain ⟨e0, e1, -⟩ := index_facts1 t
  show V c main_v39 (((cfg1.win 0).blk t).view.emb (ix2 p k)) = V c main_v39 (ix2 r k)
  refine congrArg (V c main_v39) (funext fun a => Fin.ext ?_)
  match a with
  | ⟨0, _⟩ => show win1_0.index t (0 : Fin 2) * 5000 + 1 * p.val = r.val; omega
  | ⟨1, _⟩ => show win1_0.index t (1 : Fin 2) * 32 + 1 * k.val = k.val; omega

/-- The same for the hidden layer. -/
theorem block1_hidden (c : Dev nD) (t : Fin cfg1.N) (p : Fin 5000) (k : Fin 32) (r : Fin 100000)
    (hr : r.val = t.val * 5000 + p.val) : iblk1 V c 1 t (ix2 p k) = V c main_v26 (ix2 r k) := by
  obtain ⟨-, -, e0, e1, -⟩ := index_facts1 t
  show V c main_v26 (((cfg1.win 1).blk t).view.emb (ix2 p k)) = V c main_v26 (ix2 r k)
  refine congrArg (V c main_v26) (funext fun a => Fin.ext ?_)
  match a with
  | ⟨0, _⟩ => show win1_1.index t (0 : Fin 2) * 5000 + 1 * p.val = r.val; omega
  | ⟨1, _⟩ => show win1_1.index t (1 : Fin 2) * 32 + 1 * k.val = k.val; omega

theorem block1_Wl (c : Dev nD) (t : Fin cfg1.N) (k : Fin 32) (q : Fin 16) :
    iblk1 V c 2 t (ix2 k q) = V c main_arg5 (ix2 k q) := by
  obtain ⟨-, -, -, -, e0, e1, -⟩ := index_facts1 t
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 32 + 1 * k.val = k.val; omega
  | ⟨1, _⟩ => show win1_2.index t (1 : Fin 2) * 16 + 1 * q.val = q.val; omega

theorem block1_Wr (c : Dev nD) (t : Fin cfg1.N) (k : Fin 32) (q : Fin 16) :
    iblk1 V c 3 t (ix2 k q) = V c main_arg6 (ix2 k q) := by
  obtain ⟨-, -, -, -, -, -, e0, e1, -⟩ := index_facts1 t
  show V c main_arg6 (((cfg1.win 3).blk t).view.emb (ix2 k q)) = V c main_arg6 (ix2 k q)
  refine congrArg (V c main_arg6) (funext fun a => Fin.ext ?_)
  match a with
  | ⟨0, _⟩ => show win1_3.index t (0 : Fin 2) * 32 + 1 * k.val = k.val; omega
  | ⟨1, _⟩ => show win1_3.index t (1 : Fin 2) * 16 + 1 * q.val = q.val; omega

theorem block1_bias (c : Dev nD) (t : Fin cfg1.N) (q : Fin 16) :
    iblk1 V c 4 t (ix2 (0 : Fin 1) q) = V c main_v40 (ix2 (0 : Fin 1) q) := by
  obtain ⟨-, -, -, -, -, -, -, -, e0, e1, -⟩ := index_facts1 t
  show V c main_v40 (((cfg1.win 4).blk t).view.emb (ix2 (0 : Fin 1) q)) = V c main_v40 (ix2 (0 : Fin 1) q)
  refine congrArg (V c main_v40) (funext fun a => Fin.ext ?_)
  match a with
  | ⟨0, _⟩ => show win1_4.index t (0 : Fin 2) * 1 + 1 * 0 = 0; omega
  | ⟨1, _⟩ => show win1_4.index t (1 : Fin 2) * 16 + 1 * q.val = q.val; omega

theorem block1_W (c : Dev nD) (t : Fin cfg1.N) (k : Fin 16) (q q' : Fin 2) (hq : q'.val = q.val) :
    iblk1 V c 5 t (ix2 k q) = V c main_arg8 (ix2 k q') := by
  obtain ⟨-, -, -, -, -, -, -, -, -, -, e0, e1, -⟩ := index_facts1 t
  show V c main_arg8 (((cfg1.win 5).blk t).view.emb (ix2 k q)) = V c main_arg8 (ix2 k q')
  refine congrArg (V c main_arg8) (funext fun a => Fin.ext ?_)
  match a with
  | ⟨0, _⟩ => show win1_5.index t (0 : Fin 2) * 16 + 1 * k.val = k.val; omega
  | ⟨1, _⟩ => show win1_5.index t (1 : Fin 2) * 2 + 1 * q.val = q'.val; omega

theorem block1_cbias (c : Dev nD) (t : Fin cfg1.N) (q q' : Fin 2) (hq : q'.val = q.val) :
    iblk1 V c 6 t (ix2 (0 : Fin 1) q) = V c main_v41 (ix2 (0 : Fin 1) q') := by
  obtain ⟨-, -, -, -, -, -, -, -, -, -, -, -, e0, e1, -⟩ := index_facts1 t
  show V c main_v41 (((cfg1.win 6).blk t).view.emb (ix2 (0 : Fin 1) q)) = V c main_v41 (ix2 (0 : Fin 1) q')
  refine congrArg (V c main_v41) (funext fun a => Fin.ext ?_)
  match a with
  | ⟨0, _⟩ => show win1_6.index t (0 : Fin 2) * 1 + 1 * 0 = 0; omega
  | ⟨1, _⟩ => show win1_6.index t (1 : Fin 2) * 2 + 1 * q.val = q'.val; omega

/-- WHAT POINT `t` WRITES BACK is block `t` of the result of the arrays the launch found. -/
theorem flushed1 (c : Dev nD) (t : Fin cfg1.N) :
    (dat1 V c).flushed 7 t = ((cfg1.win 7).blk t).view.read (Elt Ideal)
      (logits (V c main_v39) (V c main_v26) (V c main_arg5) (V c main_arg6) (V c main_v40) (V c main_arg8) (V c main_v41)) := by
  show (cfg1.win 7).cut (grid1.coords t) ((dat1 V c).after 7 t) = _
  rw [after1_7]
  unfold out1_7
  rw [View.canon_unit_zero zero_offsets]
  simp only [View.ld_unit_zero (S := S5000x32) zero_offsets, View.ld_unit_zero (S := S32x16) zero_offsets,
    View.ld_unit_zero (S := S1x16) zero_offsets, View.ld_unit_zero (S := S16x2) zero_offsets,
    View.ld_unit_zero (S := S1x2) zero_offsets]
  funext j
  obtain ⟨p, q, rfl⟩ : ∃ (p : Fin 5000) (q : Fin 2), j = ix2 p q := ⟨j 0, j 1, eq_ix2 j⟩
  obtain ⟨-, -, -, -, -, -, -, -, -, -, -, -, -, -, e0, e1⟩ := index_facts1 t
  have hr : ((((cfg1.win 7).blk t).view.emb (ix2 p q)) 0).val = t.val * 5000 + p.val := by
    show win1_7.index t (0 : Fin 2) * 5000 + 1 * p.val = _; omega
  have hq : ((((cfg1.win 7).blk t).view.emb (ix2 p q)) 1).val = q.val := by
    show win1_7.index t (1 : Fin 2) * 2 + 1 * q.val = _; omega
  show k1_pay1 (iblk1 V c 0 t) (iblk1 V c 1 t) (iblk1 V c 2 t) (iblk1 V c 3 t) (iblk1 V c 4 t) (iblk1 V c 5 t)
      (iblk1 V c 6 t) (ix2 p q)
    = affineAt (layer (V c main_v39) (V c main_v26) (V c main_arg5) (V c main_arg6) (fun j => V c main_v40 (ix2 (0 : Fin 1) j)))
        (V c main_arg8) (fun j => V c main_v41 (ix2 (0 : Fin 1) j))
        ((((cfg1.win 7).blk t).view.emb (ix2 p q)) 0) ((((cfg1.win 7).blk t).view.emb (ix2 p q)) 1)
  refine (logits_entry (iblk1 V c 0 t) (iblk1 V c 1 t) (iblk1 V c 2 t) (iblk1 V c 3 t) (iblk1 V c 4 t) (iblk1 V c 5 t)
    (iblk1 V c 6 t) p q).trans ?_
  refine affineAt_congr _ _ _ _ _ _ p _ q _ (fun k => ?_) (fun k => block1_W V c t k q _ hq) (block1_cbias V c t q _ hq)
  exact layerAt_congr _ _ _ _ _ _ _ _ _ _ p _ k k
    (fun k' => block1_mean V c t p k' _ hr) (fun k' => block1_hidden V c t p k' _ hr)
    (fun k' => block1_Wl V c t k' k) (fun k' => block1_Wr V c t k' k) (block1_bias V c t k)

/-- An index of the result array is in point `t`'s block iff each coordinate is in the block's range on its axis. -/
theorem mem_block1 (t : Fin cfg1.N) (i : S100000x2.Idx) :
    i ∈ ((cfg1.win 7).blk t).view.set ↔ ∀ a : Fin 2, win1_7.index t a * S5000x2.size a ≤ (i a).val
      ∧ (i a).val < win1_7.index t a * S5000x2.size a + S5000x2.size a := by
  show i ∈ ((View.whole main_v42).slice (win1_7.rect t)).set ↔ _
  rw [View.set_slice_whole, Rect.mem_set_unit]
  exact Iff.rfl

/-- The 20 blocks tile the result: row `r` is in the block of point `r / 5000`. -/
theorem cover1 (i : S100000x2.Idx) :
    ∃ t : Fin cfg1.N, (cfg1.win 7).flush t = true ∧ i ∈ ((cfg1.win 7).blk t).view.set := by
  have hi0 : (i 0).val < 100000 := (i 0).isLt
  have hi1 : (i 1).val < 2 := (i 1).isLt
  have ht : (i 0).val / 5000 < 20 := by omega
  obtain ⟨-, -, -, -, -, -, -, -, -, -, -, -, -, -, e0, e1⟩ := index_facts1 ⟨(i 0).val / 5000, ht⟩
  refine ⟨⟨(i 0).val / 5000, ht⟩, flush1_7 _, ?_⟩
  rw [mem_block1]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, ht⟩ (1 : Fin 2) * 2 ≤ (i 1).val
      ∧ (i 1).val < win1_7.index ⟨(i 0).val / 5000, ht⟩ (1 : Fin 2) * 2 + 2
    rw [e1]; omega

/-- THE SECOND LAUNCH'S OUTPUT ARRAY, after it: the result of the arrays the launch found. -/
theorem logits_array (c : Dev nD) :
    (dat1 V c).arrAt 7 cfg1.N
      = logits (V c main_v39) (V c main_v26) (V c main_arg5) (V c main_arg6) (V c main_v40) (V c main_arg8) (V c main_v41) :=
  (dat1 V c).arrAt_eq_of_cover 7 _ (fun t _ => flushed1 V c t) cover1

end Cert.KernelIdeal.Blocks

end
-- ==== Proof.RefStages.lean ====
/-
  The reference, stage by stage, in the words of the specification.

  The reference computes the neighbour means by a quotient, then `relu ((mean · Wl + b) + self · Wr)` — the bias added
  before the second product —, twice, then the affine map. Each of these three stages, read entry by entry, is the
  specification's layer (after moving the bias past the second product, by commutativity and associativity of addition)
  or its affine map, applied to the stage before it.
-/
import proofs.«125874_j31645319037563_1_alg».proof.Proof.Gen.ReferenceIdeal.Read
import proofs.«125874_j31645319037563_1_alg».proof.Proof.SageSpec

noncomputable section

namespace Cert.ReferenceIdeal.Stages

open Cert.ReferenceIdeal Cert.ReferenceIdeal.Gen Cert.ReferenceIdeal.Read Idealize.ShloMosaic Idealize.ShloMosaic.ValueIdx Cert.Sage
open scoped BigOperators

/-- The first hidden layer: the specification's layer of the quotient means and the features. -/
theorem hidden_stage (x0 : (⟨S100000x48, .f32⟩ : BufTy).Contents (Elt Ideal)) (x1 : (⟨S2x1600000, .i32⟩ : BufTy).Contents (Elt Ideal))
    (x2 x3 : (⟨S48x32, .f32⟩ : BufTy).Contents (Elt Ideal)) (x4 : (⟨S32, .f32⟩ : BufTy).Contents (Elt Ideal)) :
    val_main_v29 (F := Ideal) x0 x1 x2 x3 x4
      = layer (val_main_v22 (F := Ideal) x0 x1) x0 x2 x3 (fun j => x4 (ix1 j)) := by
  funext i
  obtain ⟨p, q, rfl⟩ : ∃ (p : Fin 100000) (q : Fin 32), i = ix2 p q := ⟨i 0, i 1, eq_ix2 i⟩
  rw [layer_ix2]
  refine Eq.trans ?_ (layerAt_bias_first (val_main_v22 (F := Ideal) x0 x1) x0 x2 x3 (fun j => x4 (ix1 j)) p q)
  rw [val_main_v29_apply, val_main_v28_apply, val_main_v26_apply, val_main_v23_apply, val_main_v27_apply,
    val_main_v25_apply, val_main_v24_apply, val_main_call0_v0_apply, val_main_call0_cst_apply]
  have el (k : Fin 48) : lidx_main_v23 (ix2 p q) k = ix2 p k :=
    funext fun a => Fin.ext (by match a with | ⟨0, _⟩ => rfl | ⟨1, _⟩ => rfl)
  have er (k : Fin 48) : ridx_main_v23 (ix2 p q) k = ix2 k q :=
    funext fun a => Fin.ext (by match a with | ⟨0, _⟩ => rfl | ⟨1, _⟩ => rfl)
  have el' (k : Fin 48) : lidx_main_v27 (ix2 p q) k = ix2 p k :=
    funext fun a => Fin.ext (by match a with | ⟨0, _⟩ => rfl | ⟨1, _⟩ => rfl)
  have er' (k : Fin 48) : ridx_main_v27 (ix2 p q) k = ix2 k q :=
    funext fun a => Fin.ext (by match a with | ⟨0, _⟩ => rfl | ⟨1, _⟩ => rfl)
  have eb : idx_main_v24 (idx_main_v25 (ix2 p q)) = ix1 q :=
    funext fun a => Fin.ext (by match a with | ⟨0, _⟩ => rfl)
  simp only [el, er, el', er', eb, Ideal.maximumf_def, Ideal.addf_def, Ideal.ofBits_def, Ideal.ofBits_zero_f32]

/-- The second hidden layer: the specification's layer of the second quotient means and the first hidden layer. -/
theorem hidden2_stage (x0 : (⟨S100000x48, .f32⟩ : BufTy).Contents (Elt Ideal)) (x1 : (⟨S2x1600000, .i32⟩ : BufTy).Contents (Elt Ideal))
    (x2 x3 : (⟨S48x32, .f32⟩ : BufTy).Contents (Elt Ideal)) (x4 : (⟨S32, .f32⟩ : BufTy).Contents (Elt Ideal))
    (x5 x6 : (⟨S32x16, .f32⟩ : BufTy).Contents (Elt Ideal)) (x7 : (⟨S16, .f32⟩ : BufTy).Contents (Elt Ideal)) :
    val_main_v55 (F := Ideal) x0 x1 x2 x3 x4 x5 x6 x7
      = layer (val_main_v48 (F := Ideal) x0 x1 x2 x3 x4) (val_main_v29 (F := Ideal) x0 x1 x2 x3 x4) x5 x6
          (fun j => x7 (ix1 j)) := by
  funext i
  obtain ⟨p, q, rfl⟩ : ∃ (p : Fin 100000) (q : Fin 16), i = ix2 p q := ⟨i 0, i 1, eq_ix2 i⟩
  rw [layer_ix2]
  refine Eq.trans ?_ (layerAt_bias_first (val_main_v48 (F := Ideal) x0 x1 x2 x3 x4)
    (val_main_v29 (F := Ideal) x0 x1 x2 x3 x4) x5 x6 (fun j => x7 (ix1 j)) p q)
  rw [val_main_v55_apply, val_main_v54_apply, val_main_v52_apply, val_main_v49_apply, val_main_v53_apply,
    val_main_v51_apply, val_main_v50_apply, val_main_call1_v0_apply, val_main_call1_cst_apply]
  have el (k : Fin 32) : lidx_main_v49 (ix2 p q) k = ix2 p k :=
    funext fun a => Fin.ext (by match a with | ⟨0, _⟩ => rfl | ⟨1, _⟩ => rfl)
  have er (k : Fin 32) : ridx_main_v49 (ix2 p q) k = ix2 k q :=
    funext fun a => Fin.ext (by match a with | ⟨0, _⟩ => rfl | ⟨1, _⟩ => rfl)
  have el' (k : Fin 32) : lidx_main_v53 (ix2 p q) k = ix2 p k :=
    funext fun a => Fin.ext (by match a with | ⟨0, _⟩ => rfl | ⟨1, _⟩ => rfl)
  have er' (k : Fin 32) : ridx_main_v53 (ix2 p q) k = ix2 k q :=
    funext fun a => Fin.ext (by match a with | ⟨0, _⟩ => rfl | ⟨1, _⟩ => rfl)
  have eb : idx_main_v50 (idx_main_v51 (ix2 p q)) = ix1 q :=
    funext fun a => Fin.ext (by match a with | ⟨0, _⟩ => rfl)
  simp only [el, er, el', er', eb, Ideal.maximumf_def, Ideal.addf_def, Ideal.ofBits_def, Ideal.ofBits_zero_f32]

/-- The result: the specification's affine map of the second hidden layer. -/
theorem logits_stage (x0 : (⟨S100000x48, .f32⟩ : BufTy).Contents (Elt Ideal)) (x1 : (⟨S2x1600000, .i32⟩ : BufTy).Contents (Elt Ideal))
    (x2 x3 : (⟨S48x32, .f32⟩ : BufTy).Contents (Elt Ideal)) (x4 : (⟨S32, .f32⟩ : BufTy).Contents (Elt Ideal))
    (x5 x6 : (⟨S32x16, .f32⟩ : BufTy).Contents (Elt Ideal)) (x7 : (⟨S16, .f32⟩ : BufTy).Contents (Elt Ideal))
    (x8 : (⟨S16x2, .f32⟩ : BufTy).Contents (Elt Ideal)) (x9 : (⟨S2, .f32⟩ : BufTy).Contents (Elt Ideal)) :
    val_main_v59 (F := Ideal) x0 x1 x2 x3 x4 x5 x6 x7 x8 x9
      = affine (val_main_v55 (F := Ideal) x0 x1 x2 x3 x4 x5 x6 x7) x8 (fun j => x9 (ix1 j)) := by
  funext i
  obtain ⟨p, q, rfl⟩ : ∃ (p : Fin 100000) (q : Fin 2), i = ix2 p q := ⟨i 0, i 1, eq_ix2 i⟩
  rw [affine_ix2]
  unfold affineAt
  rw [val_main_v59_apply, val_main_v56_apply, val_main_v58_apply, val_main_v57_apply]
  have el (k : Fin 16) : lidx_main_v56 (ix2 p q) k = ix2 p k :=
    funext fun a => Fin.ext (by match a with | ⟨0, _⟩ => rfl | ⟨1, _⟩ => rfl)
  have er (k : Fin 16) : ridx_main_v56 (ix2 p q) k = ix2 k q :=
    funext fun a => Fin.ext (by match a with | ⟨0, _⟩ => rfl | ⟨1, _⟩ => rfl)
  have eb : idx_main_v57 (idx_main_v58 (ix2 p q)) = ix1 q :=
    funext fun a => Fin.ext (by match a with | ⟨0, _⟩ => rfl)
  simp only [el, er, eb, Ideal.addf_def]

end Cert.ReferenceIdeal.Stages

end
-- ==== Proof.KernelFold.lean ====
/-
  The kernel program's returned array as a function of its arguments: the reference's own stages.

  Reading the run's fold backwards from the returned array: it is the second launch's output, the result of the arrays
  that launch found; those are the second neighbour means (host operations on the first launch's output), the first
  launch's output itself, and weights and biases unchanged since the program started; the first launch's output is the
  hidden layer of the first neighbour means and the features. Each neighbour mean is written by the host as the
  gathered-and-scattered sums TIMES the broadcast of `1 / max count 1`, where the reference DIVIDES the same sums by the
  broadcast of `max count 1`: equal arrays. So, stage by stage, the kernel program's buffers hold the reference's
  stages of the same arguments, and the returned array is the reference's result.
-/
import proofs.«125874_j31645319037563_1_alg».proof.Proof.Gen.KernelIdeal.Frame
import proofs.«125874_j31645319037563_1_alg».proof.Proof.Gen.ReferenceIdeal.Read
import proofs.«125874_j31645319037563_1_alg».proof.Proof.LibNodeMean
import proofs.«125874_j31645319037563_1_alg».proof.Proof.LibAsRow
import proofs.«125874_j31645319037563_1_alg».proof.Proof.RegionValues
import proofs.«125874_j31645319037563_1_alg».proof.Proof.RefStages
import Idealize.ShloMosaic.Lib.StableHlo.Run

set_option maxRecDepth 16384

noncomputable section

namespace Cert.KernelIdeal.Fold

open Cert.KernelIdeal Cert.KernelIdeal.Gen Cert.KernelIdeal.Blocks
open Idealize.ShloMosaic Idealize.ShloMosaic.TcCoe Idealize.SL.Sem Idealize.ShloMosaic.StableHlo Idealize.ShloMosaic.ValueIdx
open Cert.Lib Cert.Sage
open Cert.ReferenceIdeal.Read (val_main_v1 val_main_v3 val_main_v22 val_main_v29 val_main_v43 val_main_v48 val_main_v55 val_main_v59)
open Cert.ReferenceIdeal.Stages (hidden_stage hidden2_stage logits_stage)

variable (m : (ℓ : Loc nD τ sig) → Buf (Elt Ideal) ℓ) (ρ : Dev nD → PrngReg)

/-! ## Buffers no host operation of the first stretch writes: the arguments, as launched -/

theorem entry0_arg0 (c : Dev nD) : V1 m ρ c main_arg0 = m ((c.tc : Thread nD τ).loc main_arg0) := by
  show StableHlo.after hostOps0 (W0 m ρ c) (Proc.devRef .tc main_arg0) = W0 m ρ c (Proc.devRef .tc main_arg0)
  after_results_simp
theorem entry0_arg2 (c : Dev nD) : V1 m ρ c main_arg2 = m ((c.tc : Thread nD τ).loc main_arg2) := by
  show StableHlo.after hostOps0 (W0 m ρ c) (Proc.devRef .tc main_arg2) = W0 m ρ c (Proc.devRef .tc main_arg2)
  after_results_simp
theorem entry0_arg3 (c : Dev nD) : V1 m ρ c main_arg3 = m ((c.tc : Thread nD τ).loc main_arg3) := by
  show StableHlo.after hostOps0 (W0 m ρ c) (Proc.devRef .tc main_arg3) = W0 m ρ c (Proc.devRef .tc main_arg3)
  after_results_simp

/-- The first layer's bias enters the first launch as one row. -/
theorem entry0_bias (c : Dev nD) : V1 m ρ c main_v25 = asRow (m ((c.tc : Thread nD τ).loc main_arg4)) := by
  show StableHlo.after hostOps0 (W0 m ρ c) (Proc.devRef .tc main_v25) = _
  after_results_simp
  exact shapeCast_eq_asRow _ _

set_option maxHeartbeats 4000000 in
/-- THE FIRST NEIGHBOUR MEANS: the sums times the broadcast reciprocal clamped counts are the reference's quotient. -/
theorem entry0_mean (c : Dev nD) :
    V1 m ρ c main_v24 = val_main_v22 (F := Ideal) (m ((c.tc : Thread nD τ).loc main_arg0)) (m ((c.tc : Thread nD τ).loc main_arg1)) := by
  show StableHlo.after hostOps0 (W0 m ρ c) (Proc.devRef .tc main_v24) = _
  after_results_simp
  refine (mean_by_reciprocal _ _ _ _ _).trans ?_
  rfl

/-- THE FIRST LAUNCH'S OUTPUT is the reference's first hidden layer. -/
theorem hidden_value (c : Dev nD) :
    W2 m ρ c (Proc.devRef .tc main_v26)
      = val_main_v29 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (W2_arr m ρ c 5).trans ((hidden_array (V1 m ρ) c).trans ?_)
  rw [entry0_mean, entry0_arg0, entry0_arg2, entry0_arg3, entry0_bias]
  exact (hidden_stage _ _ _ _ _).symm

/-! ## The second stretch of host operations: what it reads of the first stretch and of the arguments -/

/-- A buffer of the first stretch that the first launch does not write is, after the launch, what the stretch left. -/
theorem after_launch0_v1 (c : Dev nD) :
    W2 m ρ c (Proc.devRef .tc main_v1) = val_main_v1 (F := Ideal) (m ((c.tc : Thread nD τ).loc main_arg1)) := by
  refine (W2_of_ne m ρ c main_v1 (by decide)).trans ?_
  show StableHlo.after hostOps0 (W0 m ρ c) (Proc.devRef .tc main_v1) = _
  after_results_simp
  rfl
theorem after_launch0_v3 (c : Dev nD) :
    W2 m ρ c (Proc.devRef .tc main_v3) = val_main_v3 (F := Ideal) (m ((c.tc : Thread nD τ).loc main_arg1)) := by
  refine (W2_of_ne m ρ c main_v3 (by decide)).trans ?_
  show StableHlo.after hostOps0 (W0 m ρ c) (Proc.devRef .tc main_v3) = _
  after_results_simp
  rfl

/-- The reciprocal clamped counts, computed once by the first stretch, over the reference's (second) count. -/
theorem after_launch0_recip (c : Dev nD) :
    W2 m ρ c (Proc.devRef .tc main_v11)
      = Host.divf (broadcastInDim S100000 ![] bcast_S_S100000 (constant (F := Ideal) S_ .f32 0x3F800000#32))
          (maximumf (val_main_v43 (F := Ideal) (m ((c.tc : Thread nD τ).loc main_arg1)))
            (broadcastInDim S100000 ![] bcast_S_S100000 (constant (F := Ideal) S_ .f32 0x3F800000#32))) := by
  refine (W2_of_ne m ρ c main_v11 (by decide)).trans ?_
  show StableHlo.after hostOps0 (W0 m ρ c) (Proc.devRef .tc main_v11) = _
  after_results_simp
  rfl

/-- An argument neither stretch nor the first launch writes is, when the second launch is entered, as launched. -/
theorem entry1_of_untouched (c : Dev nD) (b : Ref sig .tc)
    (h1 : StableHlo.after hostOps1 (W2 m ρ c) (Proc.devRef .tc b) = W2 m ρ c (Proc.devRef .tc b))
    (h2 : ∀ w, Pipeline.arrRef spec0 w ≠ b)
    (h0 : StableHlo.after hostOps0 (W0 m ρ c) (Proc.devRef .tc b) = W0 m ρ c (Proc.devRef .tc b)) :
    V3 m ρ c b = m ((c.tc : Thread nD τ).loc b) :=
  h1.trans ((W2_of_ne m ρ c b h2).trans h0)

theorem entry1_arg5 (c : Dev nD) : V3 m ρ c main_arg5 = m ((c.tc : Thread nD τ).loc main_arg5) :=
  entry1_of_untouched m ρ c main_arg5 (by after_results_simp) (by decide) (by after_results_simp)
theorem entry1_arg6 (c : Dev nD) : V3 m ρ c main_arg6 = m ((c.tc : Thread nD τ).loc main_arg6) :=
  entry1_of_untouched m ρ c main_arg6 (by after_results_simp) (by decide) (by after_results_simp)
theorem entry1_arg8 (c : Dev nD) : V3 m ρ c main_arg8 = m ((c.tc : Thread nD τ).loc main_arg8) :=
  entry1_of_untouched m ρ c main_arg8 (by after_results_simp) (by decide) (by after_results_simp)

theorem after_launch0_arg7 (c : Dev nD) : W2 m ρ c (Proc.devRef .tc main_arg7) = m ((c.tc : Thread nD τ).loc main_arg7) :=
  (W2_of_ne m ρ c main_arg7 (by decide)).trans
    (show StableHlo.after hostOps0 (W0 m ρ c) (Proc.devRef .tc main_arg7) = W0 m ρ c (Proc.devRef .tc main_arg7) by after_results_simp)
theorem after_launch0_arg9 (c : Dev nD) : W2 m ρ c (Proc.devRef .tc main_arg9) = m ((c.tc : Thread nD τ).loc main_arg9) :=
  (W2_of_ne m ρ c main_arg9 (by decide)).trans
    (show StableHlo.after hostOps0 (W0 m ρ c) (Proc.devRef .tc main_arg9) = W0 m ρ c (Proc.devRef .tc main_arg9) by after_results_simp)

/-- The second layer's bias and the final bias enter the second launch as one row each. -/
theorem entry1_bias (c : Dev nD) : V3 m ρ c main_v40 = asRow (m ((c.tc : Thread nD τ).loc main_arg7)) := by
  show StableHlo.after hostOps1 (W2 m ρ c) (Proc.devRef .tc main_v40) = _
  after_results_simp
  rw [after_launch0_arg7]
  exact shapeCast_eq_asRow _ _
theorem entry1_cbias (c : Dev nD) : V3 m ρ c main_v41 = asRow (m ((c.tc : Thread nD τ).loc main_arg9)) := by
  show StableHlo.after hostOps1 (W2 m ρ c) (Proc.devRef .tc main_v41) = _
  after_results_simp
  rw [after_launch0_arg9]
  exact shapeCast_eq_asRow _ _

/-- The hidden layer is not written by the second stretch. -/
theorem entry1_hidden (c : Dev nD) :
    V3 m ρ c main_v26
      = val_main_v29 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  (show StableHlo.after hostOps1 (W2 m ρ c) (Proc.devRef .tc main_v26) = W2 m ρ c (Proc.devRef .tc main_v26) by after_results_simp).trans
    (hidden_value m ρ c)

set_option maxHeartbeats 4000000 in
/-- THE SECOND NEIGHBOUR MEANS: the sums of the hidden layer's gathered rows times the broadcast reciprocal clamped counts
    are the reference's second quotient. -/
theorem entry1_mean (c : Dev nD) :
    V3 m ρ c main_v39
      = val_main_v48 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  show StableHlo.after hostOps1 (W2 m ρ c) (Proc.devRef .tc main_v39) = _
  after_results_simp
  rw [hidden_value, after_launch0_v1, after_launch0_v3, after_launch0_recip]
  refine (mean_by_reciprocal _ _ _ _ _).trans ?_
  rfl

/-- THE RETURNED ARRAY is the reference's result of the same arguments. -/
theorem result_value (c : Dev nD) :
    W4 m ρ c (Proc.devRef .tc main_v42)
      = val_main_v59 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  refine (W4_arr m ρ c 7).trans ((logits_array (V3 m ρ) c).trans ?_)
  rw [entry1_mean, entry1_hidden, entry1_arg5, entry1_arg6, entry1_bias, entry1_arg8, entry1_cbias]
  rw [logits_stage, hidden2_stage]
  rfl

end Cert.KernelIdeal.Fold

end
-- ==== Proof.lean ====
/-
  A two-layer GraphSAGE network with a final affine map, computed two ways, is one function on the extended reals.

  Both programs aggregate, per node, the features of its in-neighbours along 1.6 million edges (a gather of rows by
  source, a scatter-add by destination), divide by `max (in-degree) 1`, and apply
  `h = relu (mean · Wl + self · Wr + b)` twice and `h · W + b` once. They differ in three ways, none of which changes the
  value on the extended reals:
    • one multiplies the sums by `1 / max (count) 1` where the other divides by `max (count) 1` — the divisor is at least
      one, so not zero, and off zero the quotient IS the product with the inverse for every dividend, the infinities
      included: no finiteness of the inputs is used;
    • one adds the bias after the second product, the other before it — addition is commutative and associative on
      all of the extended reals;
    • one computes the dense part block by block, 5000 nodes at a time, rounding operands to bf16 on the way into each
      product — rounding is the identity here, a layer's entry depends on one row of its inputs only, and the blocks
      tile the nodes.
  The gather and the scatter-add are the same functions of the same index arrays on both sides and are never opened.
  The three frames are the generated ones (the reference's is its generated run with the result dropped); the
  idealization rewrote nothing, so it preserves the kernel trivially.
-/
import proofs.«125874_j31645319037563_1_alg».proof.Defs
import proofs.«125874_j31645319037563_1_alg».proof.Proof.Gen.Kernel
import proofs.«125874_j31645319037563_1_alg».proof.Proof.Gen.Kernel.Skeleton
import proofs.«125874_j31645319037563_1_alg».proof.Proof.Gen.Kernel.Launch
import proofs.«125874_j31645319037563_1_alg».proof.Proof.Gen.Kernel.Points
import proofs.«125874_j31645319037563_1_alg».proof.Proof.Gen.Kernel.Frame
import proofs.«125874_j31645319037563_1_alg».proof.Proof.Gen.KernelIdeal
import proofs.«125874_j31645319037563_1_alg».proof.Proof.Gen.KernelIdeal.Skeleton
import proofs.«125874_j31645319037563_1_alg».proof.Proof.Gen.KernelIdeal.Launch
import proofs.«125874_j31645319037563_1_alg».proof.Proof.Gen.KernelIdeal.Points
import proofs.«125874_j31645319037563_1_alg».proof.Proof.Gen.KernelIdeal.Frame
import proofs.«125874_j31645319037563_1_alg».proof.Proof.Gen.ReferenceIdeal
import proofs.«125874_j31645319037563_1_alg».proof.Proof.Gen.ReferenceIdeal.Run
import proofs.«125874_j31645319037563_1_alg».proof.Proof.Gen.ReferenceIdeal.Read
import proofs.«125874_j31645319037563_1_alg».proof.Proof.Gen.Pre_finite_inputs
import proofs.«125874_j31645319037563_1_alg».proof.Proof.ValuedRun
import proofs.«125874_j31645319037563_1_alg».proof.Proof.KernelFold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's result term of the (agreeing) arguments: the kernel program's returned array
    by reading its run's fold stage by stage, the reference's by its run. -/
theorem algebraic : Cert.algebraic_KernelIdeal_ReferenceIdeal := by
  intro m ρ m' ρ' _ hagree
  refine ⟨fun c => Cert.ReferenceIdeal.Read.val_main_v59 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.result_value m ρ c), (h c).2⟩)
      (Cert.KernelIdeal.Valued.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v59_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
